-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4x4 : Shape := ⟨3, ![4, 4, 4]⟩
abbrev S4000000x3 : Shape := ⟨2, ![4000000, 3]⟩
abbrev S_ : Shape := ⟨0, ![]⟩

class Facts : Prop where
  bcast_S_S4x4x4 : S_.BroadcastsInDim S4x4x4 (![] : Fin 0 → Fin S4x4x4.rank)
  reducesTo_S4x4x4_S_d0_1_2 : S4x4x4.ReducesTo [0, 1, 2] S_
  h_S_ : 0 < S_.numel
  bcast_S_S4000000x3 : S_.BroadcastsInDim S4000000x3 (![] : Fin 0 → Fin S4000000x3.rank)
  reducesTo_S4000000x3_S_d0_1 : S4000000x3.ReducesTo [0, 1] S_

variable [Facts]

def fn_part1 {F : FTy → Type} [FloatOps F] (main_v13 : IVec S_ 1) (main_v16 : IVec S4000000x3 1) : IVec S_ 1 :=
  let main_c_5 : IVec S_ 1 := constantI S_ 1 1#1
  let main_v17 : IVec S_ 1 := (fun x v => Host.reduce IntOp.andi x v reducesTo_S4000000x3_S_d0_1 h_S_) main_v16 main_c_5
  let main_v18 : IVec S_ 1 := andi main_v13 main_v17
  main_v18

def fn {F : FTy → Type} [FloatOps F] (main_arg0 : FVec F S4x4x4 .f32) (main_arg1 : FVec F S4000000x3 .f32) (main_arg2 : FVec F S4000000x3 .f32) (main_arg3 : FVec F S4000000x3 .f32) : IVec S_ 1 :=
  let main_v0 : FVec F S4x4x4 .f32 := Host.absf main_arg0
  let main_cst : FVec F S_ .f32 := constant S_ .f32 0x7F800000#32
  let main_v1 : FVec F S4x4x4 .f32 := broadcastInDim S4x4x4 ![] bcast_S_S4x4x4 main_cst
  let main_v2 : IVec S4x4x4 1 := cmpf .olt main_v0 main_v1
  let main_c : IVec S_ 1 := constantI S_ 1 1#1
  let main_v3 : IVec S_ 1 := (fun x v => Host.reduce IntOp.andi x v reducesTo_S4x4x4_S_d0_1_2 h_S_) main_v2 main_c
  let main_v4 : FVec F S4000000x3 .f32 := Host.absf main_arg1
  let main_cst_0 : FVec F S_ .f32 := constant S_ .f32 0x7F800000#32
  let main_v5 : FVec F S4000000x3 .f32 := broadcastInDim S4000000x3 ![] bcast_S_S4000000x3 main_cst_0
  let main_v6 : IVec S4000000x3 1 := cmpf .olt main_v4 main_v5
  let main_c_1 : IVec S_ 1 := constantI S_ 1 1#1
  let main_v7 : IVec S_ 1 := (fun x v => Host.reduce IntOp.andi x v reducesTo_S4000000x3_S_d0_1 h_S_) main_v6 main_c_1
  let main_v8 : IVec S_ 1 := andi main_v3 main_v7
  let main_v9 : FVec F S4000000x3 .f32 := Host.absf main_arg2
  let main_cst_2 : FVec F S_ .f32 := constant S_ .f32 0x7F800000#32
  let main_v10 : FVec F S4000000x3 .f32 := broadcastInDim S4000000x3 ![] bcast_S_S4000000x3 main_cst_2
  let main_v11 : IVec S4000000x3 1 := cmpf .olt main_v9 main_v10
  let main_c_3 : IVec S_ 1 := constantI S_ 1 1#1
  let main_v12 : IVec S_ 1 := (fun x v => Host.reduce IntOp.andi x v reducesTo_S4000000x3_S_d0_1 h_S_) main_v11 main_c_3
  let main_v13 : IVec S_ 1 := andi main_v8 main_v12
  let main_v14 : FVec F S4000000x3 .f32 := Host.absf main_arg3
  let main_cst_4 : FVec F S_ .f32 := constant S_ .f32 0x7F800000#32
  let main_v15 : FVec F S4000000x3 .f32 := broadcastInDim S4000000x3 ![] bcast_S_S4000000x3 main_cst_4
  let main_v16 : IVec S4000000x3 1 := cmpf .olt main_v14 main_v15
  fn_part1 (F := F) main_v13 main_v16
-- ==== Kernel.lean ====
abbrev S4x4x4 : Shape := ⟨3, ![4, 4, 4]⟩
abbrev S4000000x3 : Shape := ⟨2, ![4000000, 3]⟩
abbrev S3x4000000 : Shape := ⟨2, ![3, 4000000]⟩
abbrev S4000000x1 : Shape := ⟨2, ![4000000, 1]⟩
abbrev S4000000 : Shape := ⟨1, ![4000000]⟩
abbrev S1x4000000 : Shape := ⟨2, ![1, 4000000]⟩
abbrev S3x32000 : Shape := ⟨2, ![3, 32000]⟩
abbrev S1x32000 : Shape := ⟨2, ![1, 32000]⟩
abbrev S_ : Shape := ⟨0, ![]⟩
abbrev S921601 : Shape := ⟨1, ![921601]⟩
abbrev S921600 : Shape := ⟨1, ![921600]⟩
abbrev S921600x1 : Shape := ⟨2, ![921600, 1]⟩
abbrev S921600x3 : Shape := ⟨2, ![921600, 3]⟩
abbrev S720x1280x3 : Shape := ⟨3, ![720, 1280, 3]⟩

abbrev nBuf : Space → Nat
  | .hbm => 56
  | .vmem => 8
  | .smem => 0
  | _ => 0

abbrev bufTy : (tb : Table) → Fin (tcTables nBuf tb) → BufTy
  | .hbm, ⟨0, _⟩ => ⟨S4x4x4, .f32⟩
  | .hbm, ⟨1, _⟩ => ⟨S4000000x3, .f32⟩
  | .hbm, ⟨2, _⟩ => ⟨S4000000x3, .f32⟩
  | .hbm, ⟨3, _⟩ => ⟨S4000000x3, .f32⟩
  | .hbm, ⟨4, _⟩ => ⟨S3x4000000, .f32⟩
  | .hbm, ⟨5, _⟩ => ⟨S4000000x1, .f32⟩
  | .hbm, ⟨6, _⟩ => ⟨S4000000, .f32⟩
  | .hbm, ⟨7, _⟩ => ⟨S1x4000000, .f32⟩
  | .hbm, ⟨8, _⟩ => ⟨S1x4000000, .i32⟩
  | .hbm, ⟨9, _⟩ => ⟨S1x4000000, .f32⟩
  | .hbm, ⟨10, _⟩ => ⟨S4000000, .i32⟩
  | .hbm, ⟨11, _⟩ => ⟨S4000000, .f32⟩
  | .hbm, ⟨12, _⟩ => ⟨S4000000, .i32⟩
  | .hbm, ⟨13, _⟩ => ⟨S_, .i32⟩
  | .hbm, ⟨14, _⟩ => ⟨S921601, .i32⟩
  | .hbm, ⟨15, _⟩ => ⟨S4000000x1, .i32⟩
  | .hbm, ⟨16, _⟩ => ⟨S921601, .i32⟩
  | .hbm, ⟨17, _⟩ => ⟨S921600, .i32⟩
  | .hbm, ⟨18, _⟩ => ⟨S_, .i32⟩
  | .hbm, ⟨19, _⟩ => ⟨S921600, .i32⟩
  | .hbm, ⟨20, _⟩ => ⟨S921600, .i1⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S921600, .i32⟩
  | .hbm, ⟨25, _⟩ => ⟨S921600, .i32⟩
  | .hbm, ⟨26, _⟩ => ⟨S_, .i32⟩
  | .hbm, ⟨27, _⟩ => ⟨S921600, .i32⟩
  | .hbm, ⟨28, _⟩ => ⟨S921600, .i32⟩
  | .hbm, ⟨29, _⟩ => ⟨S_, .i32⟩
  | .hbm, ⟨30, _⟩ => ⟨S921600, .i32⟩
  | .hbm, ⟨31, _⟩ => ⟨S921600, .i1⟩
  | .hbm, ⟨32, _⟩ => ⟨S_, .i32⟩
  | .hbm, ⟨33, _⟩ => ⟨S921600, .i32⟩
  | .hbm, ⟨34, _⟩ => ⟨S921600, .i32⟩
  | .hbm, ⟨35, _⟩ => ⟨S921600, .i32⟩
  | .hbm, ⟨36, _⟩ => ⟨S921600x1, .i32⟩
  | .hbm, ⟨37, _⟩ => ⟨S921600x3, .f32⟩
  | .hbm, ⟨38, _⟩ => ⟨S_, .i32⟩
  | .hbm, ⟨39, _⟩ => ⟨S921600, .i32⟩
  | .hbm, ⟨40, _⟩ => ⟨S921600, .i1⟩
  | .hbm, ⟨41, _⟩ => ⟨S_, .i32⟩
  | .hbm, ⟨42, _⟩ => ⟨S921600, .i32⟩
  | .hbm, ⟨43, _⟩ => ⟨S921600, .i32⟩
  | .hbm, ⟨44, _⟩ => ⟨S921600, .i32⟩
  | .hbm, ⟨45, _⟩ => ⟨S921600x1, .i32⟩
  | .hbm, ⟨46, _⟩ => ⟨S921600, .f32⟩
  | .hbm, ⟨47, _⟩ => ⟨S921600x1, .f32⟩
  | .hbm, ⟨48, _⟩ => ⟨S921600x3, .f32⟩
  | .hbm, ⟨49, _⟩ => ⟨S921600x3, .f32⟩
  | .hbm, ⟨50, _⟩ => ⟨S921600x1, .i1⟩
  | .hbm, ⟨51, _⟩ => ⟨S_, .f32⟩
  | .hbm, ⟨52, _⟩ => ⟨S921600x3, .i1⟩
  | .hbm, ⟨53, _⟩ => ⟨S921600x3, .f32⟩
  | .hbm, ⟨54, _⟩ => ⟨S921600x3, .f32⟩
  | .hbm, ⟨55, _⟩ => ⟨S720x1280x3, .f32⟩
  | .local _ .vmem, ⟨0, _⟩ => ⟨S3x32000, .f32⟩
  | .local _ .vmem, ⟨1, _⟩ => ⟨S3x32000, .f32⟩
  | .local _ .vmem, ⟨2, _⟩ => ⟨S1x32000, .f32⟩
  | .local _ .vmem, ⟨3, _⟩ => ⟨S1x32000, .f32⟩
  | .local _ .vmem, ⟨4, _⟩ => ⟨S1x32000, .i32⟩
  | .local _ .vmem, ⟨5, _⟩ => ⟨S1x32000, .i32⟩
  | .local _ .vmem, ⟨6, _⟩ => ⟨S1x32000, .f32⟩
  | .local _ .vmem, ⟨7, _⟩ => ⟨S1x32000, .f32⟩
  | _, _ => ⟨S4x4x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c_0 : Ref sig .tc := ⟨.hbm, 18, rfl⟩
abbrev main_v12 : Ref sig .tc := ⟨.hbm, 19, rfl⟩
abbrev main_v13 : Ref sig .tc := ⟨.hbm, 20, rfl⟩
abbrev main_c_1 : Ref sig .tc := ⟨.hbm, 21, rfl⟩
abbrev main_c_2 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_v14 : Ref sig .tc := ⟨.hbm, 28, rfl⟩
abbrev main_c_3 : Ref sig .tc := ⟨.hbm, 29, rfl⟩
abbrev main_v15 : Ref sig .tc := ⟨.hbm, 30, rfl⟩
abbrev main_v16 : Ref sig .tc := ⟨.hbm, 31, rfl⟩
abbrev main_c_4 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_5 : Ref sig .tc := ⟨.hbm, 38, rfl⟩
abbrev main_v22 : Ref sig .tc := ⟨.hbm, 39, rfl⟩
abbrev main_v23 : Ref sig .tc := ⟨.hbm, 40, rfl⟩
abbrev main_c_6 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst : Ref sig .tc := ⟨.hbm, 51, rfl⟩
abbrev main_call1_v0 : Ref sig .tc := ⟨.hbm, 52, rfl⟩
abbrev main_call1_v1 : Ref sig .tc := ⟨.hbm, 53, rfl⟩
abbrev main_v33 : Ref sig .tc := ⟨.hbm, 54, rfl⟩
abbrev main_v34 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S3x32000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x32000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x32000 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x32000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S4000000x3_S3x4000000_1_0 : S4000000x3.Transposes [1, 0] S3x4000000
  slices_S4000000x3_S4000000x1_0_0 : S4000000x3.Slices ![0, 0] S4000000x1
  shapeCasts_S4000000x1_S4000000 : S4000000x1.ShapeCasts S4000000
  shapeCasts_S4000000_S1x4000000 : S4000000.ShapeCasts S1x4000000
  inb_S3x32000_S3x32000_0_0 : ∀ a, (![0, 0] : Fin 2 → Nat) a + S3x32000.size a ≤ S3x32000.size a
  h_S3x32000 : 0 < S3x32000.numel
  shapeCasts_S3x32000_S3x32000 : S3x32000.ShapeCasts S3x32000
  slices_S3x32000_o0_0_S1x32000 : S3x32000.Slices ![0, 0] S1x32000
  slices_S3x32000_o1_0_S1x32000 : S3x32000.Slices ![1, 0] S1x32000
  slices_S3x32000_o2_0_S1x32000 : S3x32000.Slices ![2, 0] S1x32000
  inb_S1x32000_S1x32000_0_0 : ∀ a, (![0, 0] : Fin 2 → Nat) a + S1x32000.size a ≤ S1x32000.size a
  h_S1x32000 : 0 < S1x32000.numel
  shapeCasts_S1x32000_S1x32000 : S1x32000.ShapeCasts S1x32000
  shapeCasts_S1x4000000_S4000000 : S1x4000000.ShapeCasts S4000000
  bcast_S_S921601 : S_.BroadcastsInDim S921601 (![] : Fin 0 → Fin S921601.rank)
  bcast_S4000000_S4000000x1_0 : S4000000.BroadcastsInDim S4000000x1 (![0] : Fin 1 → Fin S4000000x1.rank)
  slices_S921601_S921600_0 : S921601.Slices ![0] S921600
  bcast_S_S921600 : S_.BroadcastsInDim S921600 (![] : Fin 0 → Fin S921600.rank)
  bcast_S921600_S921600x1_0 : S921600.BroadcastsInDim S921600x1 (![0] : Fin 1 → Fin S921600x1.rank)
  bcast_S921600x1_S921600x3_0_1 : S921600x1.BroadcastsInDim S921600x3 (![0, 1] : Fin 2 → Fin S921600x3.rank)
  bcast_S_S921600x3 : S_.BroadcastsInDim S921600x3 (![] : Fin 0 → Fin S921600x3.rank)
  shapeCasts_S921600x3_S720x1280x3 : S921600x3.ShapeCasts S720x1280x3
  scatter_S921601_S4000000x1_S4000000_n_0_0_1_wf : ScatterDims.WF S921601 S4000000x1 S4000000 [] [0] [0] 1
  gather_S4000000x3_S921600x1_S921600x3_1_0_n_n_0_1_13_wf : GatherDims.WF S4000000x3 S921600x1 S921600x3 [1] [0] [] [0] [] 1 ![1, 3]
  gather_S4000000_S921600x1_S921600_n_0_n_n_0_1_1_wf : GatherDims.WF S4000000 S921600x1 S921600 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3x32000.size a ≤ S3x4000000.size a
  hwx0_0 : ∀ i : grid0.Coords, EltTy.bits .f32 = 32 ∨ (Rect.block (s := S3x4000000) S3x32000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x32000.size a ≤ S1x4000000.size a
  hwx0_1 : ∀ i : grid0.Coords, EltTy.bits .f32 = 32 ∨ (Rect.block (s := S1x4000000) S1x32000.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x32000.size a ≤ S1x4000000.size a
  hwx0_2 : ∀ i : grid0.Coords, EltTy.bits .i32 = 32 ∨ (Rect.block (s := S1x4000000) S1x32000.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x32000.size a ≤ S1x4000000.size a
  hwx0_3 : ∀ i : grid0.Coords, EltTy.bits .f32 = 32 ∨ (Rect.block (s := S1x4000000) S1x32000.size (cc0_transform_3 i) (hinb0_3 i)).WholeWords (EltTy.packing .f32)

variable [Facts₀]

def scatter_S921601_S4000000x1_S4000000_n_0_0_1 : ScatterDims S921601 S4000000x1 S4000000 where
  updateWindowDims := []
  insertedWindowDims := [0]
  scatterDimsToOperandDims := [0]
  indexVectorDim := 1
  wf := scatter_S921601_S4000000x1_S4000000_n_0_0_1_wf
def gather_S4000000x3_S921600x1_S921600x3_1_0_n_n_0_1_13 : GatherDims S4000000x3 S921600x1 S921600x3 where
  offsetDims := [1]
  collapsedSliceDims := [0]
  operandBatchingDims := []
  startIndicesBatchingDims := []
  startIndexMap := [0]
  indexVectorDim := 1
  sliceSizes := ![1, 3]
  wf := gather_S4000000x3_S921600x1_S921600x3_1_0_n_n_0_1_13_wf
def gather_S4000000_S921600x1_S921600_n_0_n_n_0_1_1 : GatherDims S4000000 S921600x1 S921600 where
  offsetDims := []
  collapsedSliceDims := [0]
  operandBatchingDims := []
  startIndicesBatchingDims := []
  startIndexMap := [0]
  indexVectorDim := 1
  sliceSizes := ![1]
  wf := gather_S4000000_S921600x1_S921600_n_0_n_n_0_1_1_wf

abbrev win0_0 : Pipeline.Window sig grid0 :=
  Pipeline.Window.ofSpec (Memref.whole main_v0) S3x32000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1x32000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4_0) S1x32000.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4_1) S1x32000.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x4x4 : Shape := ⟨3, ![4, 4, 4]⟩
abbrev S4000000x3 : Shape := ⟨2, ![4000000, 3]⟩
abbrev S4000000x1 : Shape := ⟨2, ![4000000, 1]⟩
abbrev S4000000 : Shape := ⟨1, ![4000000]⟩
abbrev S_ : Shape := ⟨0, ![]⟩
abbrev S921601 : Shape := ⟨1, ![921601]⟩
abbrev S921600 : Shape := ⟨1, ![921600]⟩
abbrev S921600x1 : Shape := ⟨2, ![921600, 1]⟩
abbrev S921600x3 : Shape := ⟨2, ![921600, 3]⟩
abbrev S720x1280x3 : Shape := ⟨3, ![720, 1280, 3]⟩

abbrev nBuf : Space → Nat
  | .hbm => 115
  | .vmem => 0
  | .smem => 0
  | _ => 0

abbrev bufTy : (tb : Table) → Fin (tcTables nBuf tb) → BufTy
  | .hbm, ⟨0, _⟩ => ⟨S4x4x4, .f32⟩
  | .hbm, ⟨1, _⟩ => ⟨S4000000x3, .f32⟩
  | .hbm, ⟨2, _⟩ => ⟨S4000000x3, .f32⟩
  | .hbm, ⟨3, _⟩ => ⟨S4000000x3, .f32⟩
  | .hbm, ⟨4, _⟩ => ⟨S4000000x1, .f32⟩
  | .hbm, ⟨5, _⟩ => ⟨S4000000, .f32⟩
  | .hbm, ⟨6, _⟩ => ⟨S4000000x1, .f32⟩
  | .hbm, ⟨7, _⟩ => ⟨S4000000, .f32⟩
  | .hbm, ⟨8, _⟩ => ⟨S4000000x1, .f32⟩
  | .hbm, ⟨9, _⟩ => ⟨S4000000, .f32⟩
  | .hbm, ⟨10, _⟩ => ⟨S_, .f32⟩
  | .hbm, ⟨11, _⟩ => ⟨S4000000, .f32⟩
  | .hbm, ⟨12, _⟩ => ⟨S4000000, .f32⟩
  | .hbm, ⟨13, _⟩ => ⟨S4000000, .f32⟩
  | .hbm, ⟨14, _⟩ => ⟨S_, .f32⟩
  | .hbm, ⟨15, _⟩ => ⟨S4000000, .f32⟩
  | .hbm, ⟨16, _⟩ => ⟨S4000000, .f32⟩
  | .hbm, ⟨17, _⟩ => ⟨S_, .f32⟩
  | .hbm, ⟨18, _⟩ => ⟨S4000000, .f32⟩
  | .hbm, ⟨19, _⟩ => ⟨S4000000, .f32⟩
  | .hbm, ⟨20, _⟩ => ⟨S4000000, .f32⟩
  | .hbm, ⟨21, _⟩ => ⟨S_, .f32⟩
  | .hbm, ⟨22, _⟩ => ⟨S4000000, .f32⟩
  | .hbm, ⟨23, _⟩ => ⟨S4000000, .f32⟩
  | .hbm, ⟨24, _⟩ => ⟨S_, .f32⟩
  | .hbm, ⟨25, _⟩ => ⟨S4000000, .f32⟩
  | .hbm, ⟨26, _⟩ => ⟨S4000000, .f32⟩
  | .hbm, ⟨27, _⟩ => ⟨S_, .f32⟩
  | .hbm, ⟨28, _⟩ => ⟨S4000000, .f32⟩
  | .hbm, ⟨29, _⟩ => ⟨S4000000, .i1⟩
  | .hbm, ⟨30, _⟩ => ⟨S_, .f32⟩
  | .hbm, ⟨31, _⟩ => ⟨S4000000, .f32⟩
  | .hbm, ⟨32, _⟩ => ⟨S4000000, .i1⟩
  | .hbm, ⟨33, _⟩ => ⟨S4000000, .i1⟩
  | .hbm, ⟨34, _⟩ => ⟨S_, .f32⟩
  | .hbm, ⟨35, _⟩ => ⟨S4000000, .f32⟩
  | .hbm, ⟨36, _⟩ => ⟨S4000000, .i1⟩
  | .hbm, ⟨37, _⟩ => ⟨S4000000, .i1⟩
  | .hbm, ⟨38, _⟩ => ⟨S_, .f32⟩
  | .hbm, ⟨39, _⟩ => ⟨S4000000, .f32⟩
  | .hbm, ⟨40, _⟩ => ⟨S4000000, .i1⟩
  | .hbm, ⟨41, _⟩ => ⟨S4000000, .i1⟩
  | .hbm, ⟨42, _⟩ => ⟨S4000000, .f32⟩
  | .hbm, ⟨43, _⟩ => ⟨S4000000, .f32⟩
  | .hbm, ⟨44, _⟩ => ⟨S4000000, .f32⟩
  | .hbm, ⟨45, _⟩ => ⟨S4000000, .f32⟩
  | .hbm, ⟨46, _⟩ => ⟨S4000000x1, .f32⟩
  | .hbm, ⟨47, _⟩ => ⟨S4000000, .f32⟩
  | .hbm, ⟨48, _⟩ => ⟨S_, .f32⟩
  | .hbm, ⟨49, _⟩ => ⟨S4000000, .f32⟩
  | .hbm, ⟨50, _⟩ => ⟨S4000000, .f32⟩
  | .hbm, ⟨51, _⟩ => ⟨S4000000, .f32⟩
  | .hbm, ⟨52, _⟩ => ⟨S4000000, .f32⟩
  | .hbm, ⟨53, _⟩ => ⟨S4000000, .f32⟩
  | .hbm, ⟨54, _⟩ => ⟨S4000000, .f32⟩
  | .hbm, ⟨55, _⟩ => ⟨S_, .f32⟩
  | .hbm, ⟨56, _⟩ => ⟨S4000000, .f32⟩
  | .hbm, ⟨57, _⟩ => ⟨S4000000, .f32⟩
  | .hbm, ⟨58, _⟩ => ⟨S4000000, .f32⟩
  | .hbm, ⟨59, _⟩ => ⟨S4000000, .f32⟩
  | .hbm, ⟨60, _⟩ => ⟨S4000000, .f32⟩
  | .hbm, ⟨61, _⟩ => ⟨S4000000, .i32⟩
  | .hbm, ⟨62, _⟩ => ⟨S_, .i32⟩
  | .hbm, ⟨63, _⟩ => ⟨S4000000, .i32⟩
  | .hbm, ⟨64, _⟩ => ⟨S4000000, .i32⟩
  | .hbm, ⟨65, _⟩ => ⟨S4000000, .i32⟩
  | .hbm, ⟨66, _⟩ => ⟨S4000000, .i32⟩
  | .hbm, ⟨67, _⟩ => ⟨S_, .i32⟩
  | .hbm, ⟨68, _⟩ => ⟨S_, .i32⟩
  | .hbm, ⟨69, _⟩ => ⟨S4000000, .i32⟩
  | .hbm, ⟨70, _⟩ => ⟨S4000000, .i32⟩
  | .hbm, ⟨71, _⟩ => ⟨S4000000, .i32⟩
  | .hbm, ⟨72, _⟩ => ⟨S_, .i32⟩
  | .hbm, ⟨73, _⟩ => ⟨S921601, .i32⟩
  | .hbm, ⟨74, _⟩ => ⟨S4000000x1, .i32⟩
  | .hbm, ⟨75, _⟩ => ⟨S921601, .i32⟩
  | .hbm, ⟨76, _⟩ => ⟨S921600, .i32⟩
  | .hbm, ⟨77, _⟩ => ⟨S_, .i32⟩
  | .hbm, ⟨78, _⟩ => ⟨S921600, .i32⟩
  | .hbm, ⟨79, _⟩ => ⟨S921600, .i1⟩
  | .hbm, ⟨80, _⟩ => ⟨S_, .i32⟩
  | .hbm, ⟨81, _⟩ => ⟨S_, .i32⟩
  | .hbm, ⟨82, _⟩ => ⟨S_, .i32⟩
  | .hbm, ⟨83, _⟩ => ⟨S921600, .i32⟩
  | .hbm, ⟨84, _⟩ => ⟨S921600, .i32⟩
  | .hbm, ⟨85, _⟩ => ⟨S_, .i32⟩
  | .hbm, ⟨86, _⟩ => ⟨S921600, .i32⟩
  | .hbm, ⟨87, _⟩ => ⟨S921600, .i32⟩
  | .hbm, ⟨88, _⟩ => ⟨S_, .i32⟩
  | .hbm, ⟨89, _⟩ => ⟨S921600, .i32⟩
  | .hbm, ⟨90, _⟩ => ⟨S921600, .i1⟩
  | .hbm, ⟨91, _⟩ => ⟨S_, .i32⟩
  | .hbm, ⟨92, _⟩ => ⟨S921600, .i32⟩
  | .hbm, ⟨93, _⟩ => ⟨S921600, .i32⟩
  | .hbm, ⟨94, _⟩ => ⟨S921600, .i32⟩
  | .hbm, ⟨95, _⟩ => ⟨S921600x1, .i32⟩
  | .hbm, ⟨96, _⟩ => ⟨S921600x3, .f32⟩
  | .hbm, ⟨97, _⟩ => ⟨S_, .i32⟩
  | .hbm, ⟨98, _⟩ => ⟨S921600, .i32⟩
  | .hbm, ⟨99, _⟩ => ⟨S921600, .i1⟩
  | .hbm, ⟨100, _⟩ => ⟨S_, .i32⟩
  | .hbm, ⟨101, _⟩ => ⟨S921600, .i32⟩
  | .hbm, ⟨102, _⟩ => ⟨S921600, .i32⟩
  | .hbm, ⟨103, _⟩ => ⟨S921600, .i32⟩
  | .hbm, ⟨104, _⟩ => ⟨S921600x1, .i32⟩
  | .hbm, ⟨105, _⟩ => ⟨S921600, .f32⟩
  | .hbm, ⟨106, _⟩ => ⟨S921600x1, .f32⟩
  | .hbm, ⟨107, _⟩ => ⟨S921600x3, .f32⟩
  | .hbm, ⟨108, _⟩ => ⟨S921600x3, .f32⟩
  | .hbm, ⟨109, _⟩ => ⟨S921600x1, .i1⟩
  | .hbm, ⟨110, _⟩ => ⟨S_, .f32⟩
  | .hbm, ⟨111, _⟩ => ⟨S921600x3, .i1⟩
  | .hbm, ⟨112, _⟩ => ⟨S921600x3, .f32⟩
  | .hbm, ⟨113, _⟩ => ⟨S921600x3, .f32⟩
  | .hbm, ⟨114, _⟩ => ⟨S720x1280x3, .f32⟩
  | _, _ => ⟨S4x4x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_7 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_8 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_9 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_c : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_c_10 : Ref sig .tc := ⟨.hbm, 67, rfl⟩
abbrev main_call0_v0 : Ref sig .tc := ⟨.hbm, 68, rfl⟩
abbrev main_call0_v1 : Ref sig .tc := ⟨.hbm, 69, rfl⟩
abbrev main_v51 : Ref sig .tc := ⟨.hbm, 70, rfl⟩
abbrev main_v52 : Ref sig .tc := ⟨.hbm, 71, rfl⟩
abbrev main_c_11 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_c_12 : Ref sig .tc := ⟨.hbm, 77, rfl⟩
abbrev main_v57 : Ref sig .tc := ⟨.hbm, 78, rfl⟩
abbrev main_v58 : Ref sig .tc := ⟨.hbm, 79, rfl⟩
abbrev main_c_13 : Ref sig .tc := ⟨.hbm, 80, rfl⟩
abbrev main_c_14 : Ref sig .tc := ⟨.hbm, 81, rfl⟩
abbrev main_call1_v0 : Ref sig .tc := ⟨.hbm, 82, rfl⟩
abbrev main_call1_v1 : Ref sig .tc := ⟨.hbm, 83, rfl⟩
abbrev main_call1_v2 : Ref sig .tc := ⟨.hbm, 84, rfl⟩
abbrev main_call1_v3 : Ref sig .tc := ⟨.hbm, 85, rfl⟩
abbrev main_call1_v4 : Ref sig .tc := ⟨.hbm, 86, rfl⟩
abbrev main_v59 : Ref sig .tc := ⟨.hbm, 87, rfl⟩
abbrev main_c_15 : Ref sig .tc := ⟨.hbm, 88, rfl⟩
abbrev main_v60 : Ref sig .tc := ⟨.hbm, 89, rfl⟩
abbrev main_v61 : Ref sig .tc := ⟨.hbm, 90, rfl⟩
abbrev main_c_16 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_c_17 : Ref sig .tc := ⟨.hbm, 97, rfl⟩
abbrev main_v67 : Ref sig .tc := ⟨.hbm, 98, rfl⟩
abbrev main_v68 : Ref sig .tc := ⟨.hbm, 99, rfl⟩
abbrev main_c_18 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_cst_19 : Ref sig .tc := ⟨.hbm, 110, rfl⟩
abbrev main_call2_v0 : Ref sig .tc := ⟨.hbm, 111, rfl⟩
abbrev main_call2_v1 : Ref sig .tc := ⟨.hbm, 112, rfl⟩
abbrev main_v78 : Ref sig .tc := ⟨.hbm, 113, rfl⟩
abbrev main_v79 : Ref sig .tc := ⟨.hbm, 114, rfl⟩

abbrev nD : Nat := 1
abbrev τ : Topo := Topo.v7x

variable {F : FTy → Type} [FloatOps F]

class Facts₀ : Prop where
  slices_S4000000x3_S4000000x1_0_0 : S4000000x3.Slices ![0, 0] S4000000x1
  shapeCasts_S4000000x1_S4000000 : S4000000x1.ShapeCasts S4000000
  slices_S4000000x3_S4000000x1_0_1 : S4000000x3.Slices ![0, 1] S4000000x1
  slices_S4000000x3_S4000000x1_0_2 : S4000000x3.Slices ![0, 2] S4000000x1
  bcast_S_S4000000 : S_.BroadcastsInDim S4000000 (![] : Fin 0 → Fin S4000000.rank)
  bcast_S_S921601 : S_.BroadcastsInDim S921601 (![] : Fin 0 → Fin S921601.rank)
  bcast_S4000000_S4000000x1_0 : S4000000.BroadcastsInDim S4000000x1 (![0] : Fin 1 → Fin S4000000x1.rank)
  slices_S921601_S921600_0 : S921601.Slices ![0] S921600
  bcast_S_S921600 : S_.BroadcastsInDim S921600 (![] : Fin 0 → Fin S921600.rank)
  bcast_S921600_S921600x1_0 : S921600.BroadcastsInDim S921600x1 (![0] : Fin 1 → Fin S921600x1.rank)
  bcast_S921600x1_S921600x3_0_1 : S921600x1.BroadcastsInDim S921600x3 (![0, 1] : Fin 2 → Fin S921600x3.rank)
  bcast_S_S921600x3 : S_.BroadcastsInDim S921600x3 (![] : Fin 0 → Fin S921600x3.rank)
  shapeCasts_S921600x3_S720x1280x3 : S921600x3.ShapeCasts S720x1280x3
  scatter_S921601_S4000000x1_S4000000_n_0_0_1_wf : ScatterDims.WF S921601 S4000000x1 S4000000 [] [0] [0] 1
  gather_S4000000x3_S921600x1_S921600x3_1_0_n_n_0_1_13_wf : GatherDims.WF S4000000x3 S921600x1 S921600x3 [1] [0] [] [0] [] 1 ![1, 3]
  gather_S4000000_S921600x1_S921600_n_0_n_n_0_1_1_wf : GatherDims.WF S4000000 S921600x1 S921600 [] [0] [] [0] [] 1 ![1]

variable [Facts₀]

def scatter_S921601_S4000000x1_S4000000_n_0_0_1 : ScatterDims S921601 S4000000x1 S4000000 where
  updateWindowDims := []
  insertedWindowDims := [0]
  scatterDimsToOperandDims := [0]
  indexVectorDim := 1
  wf := scatter_S921601_S4000000x1_S4000000_n_0_0_1_wf
def gather_S4000000x3_S921600x1_S921600x3_1_0_n_n_0_1_13 : GatherDims S4000000x3 S921600x1 S921600x3 where
  offsetDims := [1]
  collapsedSliceDims := [0]
  operandBatchingDims := []
  startIndicesBatchingDims := []
  startIndexMap := [0]
  indexVectorDim := 1
  sliceSizes := ![1, 3]
  wf := gather_S4000000x3_S921600x1_S921600x3_1_0_n_n_0_1_13_wf
def gather_S4000000_S921600x1_S921600_n_0_n_n_0_1_1 : GatherDims S4000000 S921600x1 S921600 where
  offsetDims := []
  collapsedSliceDims := [0]
  operandBatchingDims := []
  startIndicesBatchingDims := []
  startIndexMap := [0]
  indexVectorDim := 1
  sliceSizes := ![1]
  wf := gather_S4000000_S921600x1_S921600_n_0_n_n_0_1_1_wf

class Facts : Prop extends Facts₀ where

variable [Facts]
-- ==== Proof.Splat.lean ====
/-
  One point's projection, as exact arithmetic on the extended reals.

  A point `(x, y, z)` is seen at screen coordinates `u = 800 · (x / (z + 3)) + 640` and
  `v = 800 · (y / (z + 3)) + 360`. It is in frame when `0 ≤ u < 1280` and `0 ≤ v < 720`; its pixel is then
  `⌊v⌋ · 1280 + ⌊u⌋` (as 32-bit integers), and otherwise the extra pixel `921600 = 720 · 1280` that no image
  position has. Its weight is `exp (-(du² + dv²) / (2 · r · r))` with `du = u - ⌊u⌋`, `dv = v - ⌊v⌋` the
  offsets inside the pixel and `r = 100 · s` the radius from the point's scale `s`.

  Two ways of writing the pixel and the weight are shown to be these functions: one that clears the floors of an
  out-of-frame point before they are converted to integers (the conversion then never sees a large number, and the
  result is discarded anyway), and one that negates by subtracting from zero.
-/
import Idealize.ShloMosaic.PureOps.Ideal
import Idealize.ShloMosaic.PureOps.Ideal.Laws
import Idealize.ShloMosaic.Lib.ValueIdx

noncomputable section

open Idealize.ShloMosaic

namespace Cert.Splat

/-- A screen coordinate: `800 · (p / (z + 3)) + centre`, the centre given by its float pattern. -/
def screen (centre : BitVec 32) (p z : EReal) : EReal :=
  Ideal.ofBits .f32 0x44480000#32 * Ideal.div p (z + Ideal.ofBits .f32 0x40400000#32) + Ideal.ofBits .f32 centre

/-- The horizontal screen coordinate (centre 640). -/
abbrev screenU (x z : EReal) : EReal := screen 0x44200000#32 x z
/-- The vertical screen coordinate (centre 360). -/
abbrev screenV (y z : EReal) : EReal := screen 0x43B40000#32 y z

/-- In frame: `0 ≤ u < 1280` and `0 ≤ v < 720`, as one bit. -/
def inFrame (u v : EReal) : BitVec 1 :=
  IntOp.andi (IntOp.andi (IntOp.andi (Ideal.cmp .oge u (Ideal.ofBits .f32 0x00000000#32)) (Ideal.cmp .olt u (Ideal.ofBits .f32 0x44A00000#32)))
    (Ideal.cmp .oge v (Ideal.ofBits .f32 0x00000000#32))) (Ideal.cmp .olt v (Ideal.ofBits .f32 0x44340000#32))

/-- The pixel of screen position `(u, v)`: row `⌊v⌋`, column `⌊u⌋` of a 1280-wide image when in frame, the extra
    pixel `921600` otherwise. -/
def pixel (u v : EReal) : BitVec 32 :=
  Scalar.select (inFrame u v)
    (IntOp.addi (IntOp.muli (Ideal.fptosi 32 (Ideal.liftRound Int.floor v)) 1280#32) (Ideal.fptosi 32 (Ideal.liftRound Int.floor u)))
    921600#32

/-- The offset of a coordinate inside its pixel. -/
def offset (u : EReal) : EReal := u - Ideal.liftRound Int.floor u

/-- The weight of a point at screen position `(u, v)` with scale `s`. -/
def weight (u v s : EReal) : EReal :=
  Ideal.exp (Ideal.div (-(offset u * offset u + offset v * offset v))
    (Ideal.ofBits .f32 0x40000000#32 * (s * Ideal.ofBits .f32 0x42C80000#32) * (s * Ideal.ofBits .f32 0x42C80000#32)))

/-- Clearing the two floors of an out-of-frame point before the integer conversion does not change the pixel: in
    frame nothing is cleared, and out of frame the converted value is not used. -/
theorem pixel_of_cleared (u v z0 z1 : EReal) :
    Scalar.select (inFrame u v)
      (IntOp.addi (IntOp.muli (Ideal.fptosi 32 (Scalar.select (inFrame u v) (Ideal.liftRound Int.floor v) z1)) 1280#32)
        (Ideal.fptosi 32 (Scalar.select (inFrame u v) (Ideal.liftRound Int.floor u) z0)))
      921600#32 = pixel u v := by
  unfold pixel
  by_cases h : inFrame u v = 1#1
  · rw [h]; simp only [ValueIdx.select_one]
  · rw [ValueIdx.eq_zero_of_ne_one h]; simp only [ValueIdx.select_zero]

/-- Subtracting from the zero pattern is negating. -/
theorem weight_of_zero_sub (u v s : EReal) :
    Ideal.exp (Ideal.div (Ideal.ofBits .f32 0x00000000#32 - (offset u * offset u + offset v * offset v))
      (Ideal.ofBits .f32 0x40000000#32 * (s * Ideal.ofBits .f32 0x42C80000#32) * (s * Ideal.ofBits .f32 0x42C80000#32)))
    = weight u v s := by
  unfold weight
  rw [Ideal.ofBits_zero_f32, zero_sub]

end Cert.Splat

end
-- ==== Proof.BodyValue.lean ====
/-
  What the kernel body computes for one lane of a block.

  A block of the transposed positions is `[3, 32000]`: row 0 the `x`s, row 1 the `y`s, row 2 the `z`s of 32000
  consecutive points; a block of the scale column is `[1, 32000]`. The body is lane-wise: lane `q` of its two
  results depends on column `q` of the two blocks only. Read at lane `q`, the integer result is the pixel of point
  `q`'s screen position and the float result its weight.
-/
import proofs.«126158_j1709396984135_2_alg».proof.Proof.Gen.KernelIdeal.Skeleton
import proofs.«126158_j1709396984135_2_alg».proof.Proof.Splat
import Idealize.ShloMosaic.Lib.Pipeline.Value
import Idealize.ShloMosaic.Lib.ValueIdx

noncomputable section

namespace Cert.KernelIdeal.BodyValue

open Cert.KernelIdeal Cert.KernelIdeal.Gen Idealize.ShloMosaic Idealize.ShloMosaic.ValueIdx Cert.Splat

/-- The shape cast of a block to its own shape changes nothing. -/
theorem rows_eq (x0 : Vec Ideal S3x32000 .f32) : k0_pay3 (F := Ideal) x0 = x0 := by
  unfold k0_pay3
  exact shapeCast_self _ _

/-- Row 0 of a block at lane `q`. -/
theorem row0_at (x0 : FVec Ideal S3x32000 .f32) (q : Fin 32000) :
    extractStridedSlice S1x32000 ![0, 0] x0 slices_S3x32000_o0_0_S1x32000 (ix2 0 q) = x0 (ix2 0 q) :=
  extractStridedSlice_apply ![0, 0] x0 slices_S3x32000_o0_0_S1x32000 (ix2 0 q) (ix2 0 q) (fun a => match a with
    | ⟨0, _⟩ => rfl
    | ⟨1, _⟩ => by show q.val = 0 + q.val; omega)

/-- Row 1 of a block at lane `q`. -/
theorem row1_at (x0 : FVec Ideal S3x32000 .f32) (q : Fin 32000) :
    extractStridedSlice S1x32000 ![1, 0] x0 slices_S3x32000_o1_0_S1x32000 (ix2 0 q) = x0 (ix2 1 q) :=
  extractStridedSlice_apply ![1, 0] x0 slices_S3x32000_o1_0_S1x32000 (ix2 0 q) (ix2 1 q) (fun a => match a with
    | ⟨0, _⟩ => rfl
    | ⟨1, _⟩ => by show q.val = 0 + q.val; omega)

/-- Row 2 of a block at lane `q`. -/
theorem row2_at (x0 : FVec Ideal S3x32000 .f32) (q : Fin 32000) :
    extractStridedSlice S1x32000 ![2, 0] x0 slices_S3x32000_o2_0_S1x32000 (ix2 0 q) = x0 (ix2 2 q) :=
  extractStridedSlice_apply ![2, 0] x0 slices_S3x32000_o2_0_S1x32000 (ix2 0 q) (ix2 2 q) (fun a => match a with
    | ⟨0, _⟩ => rfl
    | ⟨1, _⟩ => by show q.val = 0 + q.val; omega)

/-- The depth `z + 3` at lane `q`. -/
theorem depth_at (x0 : Vec Ideal S3x32000 .f32) (q : Fin 32000) :
    k0_pay4 (F := Ideal) x0 (ix2 0 q) = x0 (ix2 2 q) + Ideal.ofBits .f32 0x40400000#32 := by
  unfold k0_pay4
  show extractStridedSlice S1x32000 ![2, 0] (k0_pay3 (F := Ideal) x0) slices_S3x32000_o2_0_S1x32000 (ix2 0 q) + Ideal.ofBits .f32 0x40400000#32 = _
  rw [rows_eq, row2_at]

/-- The horizontal screen coordinate at lane `q`. -/
theorem u_at (x0 : Vec Ideal S3x32000 .f32) (q : Fin 32000) :
    k0_pay5 (F := Ideal) x0 (ix2 0 q) = screenU (x0 (ix2 0 q)) (x0 (ix2 2 q)) := by
  unfold k0_pay5
  show Ideal.ofBits .f32 0x44480000#32 * Ideal.div (extractStridedSlice S1x32000 ![0, 0] (k0_pay3 (F := Ideal) x0) slices_S3x32000_o0_0_S1x32000 (ix2 0 q)) (k0_pay4 (F := Ideal) x0 (ix2 0 q)) + Ideal.ofBits .f32 0x44200000#32 = _
  rw [rows_eq, row0_at, depth_at]
  rfl

/-- The vertical screen coordinate at lane `q`. -/
theorem v_at (x0 : Vec Ideal S3x32000 .f32) (q : Fin 32000) :
    k0_pay6 (F := Ideal) x0 (ix2 0 q) = screenV (x0 (ix2 1 q)) (x0 (ix2 2 q)) := by
  unfold k0_pay6
  show Ideal.ofBits .f32 0x44480000#32 * Ideal.div (extractStridedSlice S1x32000 ![1, 0] (k0_pay3 (F := Ideal) x0) slices_S3x32000_o1_0_S1x32000 (ix2 0 q)) (k0_pay4 (F := Ideal) x0 (ix2 0 q)) + Ideal.ofBits .f32 0x43B40000#32 = _
  rw [rows_eq, row1_at, depth_at]
  rfl

/-- The in-frame bit at a lane is the bit of the two screen coordinates there. -/
theorem inFrame_at (x0 : Vec Ideal S3x32000 .f32) (j : S1x32000.Idx) :
    k0_pay7 (F := Ideal) x0 j = inFrame (k0_pay5 (F := Ideal) x0 j) (k0_pay6 (F := Ideal) x0 j) := rfl

/-- THE INTEGER RESULT at lane `q`: the pixel of the point in column `q`. The body clears the floors of an
    out-of-frame point before converting them; that changes nothing (`pixel_of_cleared`). -/
theorem pix_at (x0 : Vec Ideal S3x32000 .f32) (q : Fin 32000) :
    k0_pay2 (F := Ideal) (k0_pay7 x0) (k0_pay8 x0) (k0_pay9 x0) (ix2 0 q)
      = pixel (screenU (x0 (ix2 0 q)) (x0 (ix2 2 q))) (screenV (x0 (ix2 1 q)) (x0 (ix2 2 q))) := by
  rw [← u_at, ← v_at]
  exact pixel_of_cleared (k0_pay5 (F := Ideal) x0 (ix2 0 q)) (k0_pay6 (F := Ideal) x0 (ix2 0 q)) _ _

/-- The shape cast of a scale block to its own shape changes nothing, so the radius at a lane is `s · 100`. -/
theorem radius_at (x1 : Vec Ideal S1x32000 .f32) (j : S1x32000.Idx) :
    k0_pay10 (F := Ideal) x1 j = x1 j * Ideal.ofBits .f32 0x42C80000#32 := by
  unfold k0_pay10
  show shapeCast S1x32000 x1 shapeCasts_S1x32000_S1x32000 j * Ideal.ofBits .f32 0x42C80000#32 = _
  rw [shapeCast_self]

/-- THE FLOAT RESULT at lane `q`: the weight of the point in column `q`. The body negates by subtracting from
    zero (`weight_of_zero_sub`). -/
theorem weight_at (x0 : Vec Ideal S3x32000 .f32) (x1 : Vec Ideal S1x32000 .f32) (q : Fin 32000) :
    k0_pay1 (F := Ideal) (k0_pay10 x1) (k0_pay11 x0) (k0_pay12 x1) (ix2 0 q)
      = weight (screenU (x0 (ix2 0 q)) (x0 (ix2 2 q))) (screenV (x0 (ix2 1 q)) (x0 (ix2 2 q))) (x1 (ix2 0 q)) := by
  rw [← u_at, ← v_at, ← weight_of_zero_sub]
  show Ideal.exp (Ideal.div (k0_pay11 (F := Ideal) x0 (ix2 0 q)) (Ideal.ofBits .f32 0x40000000#32 * k0_pay10 (F := Ideal) x1 (ix2 0 q) * k0_pay10 (F := Ideal) x1 (ix2 0 q))) = _
  rw [radius_at]
  rfl

end Cert.KernelIdeal.BodyValue

end
-- ==== Proof.KernelArrays.lean ====
/-
  The two arrays the kernel writes, as whole-array functions of what the region finds.

  The region finds the positions transposed, `A0 : [3, 4000000]` (row 0 the `x`s, row 1 the `y`s, row 2 the
  `z`s), and the first scale column as a row, `A1 : [1, 4000000]`. Grid point `t` of 125 reads columns
  `32000 t … 32000 t + 31999` of both and writes the same columns of the two results; the body is lane-wise, so
  column `n` of the integer result is the pixel of point `n` and column `n` of the float result its weight,
  whatever block `n` falls in. The 125 blocks tile the 4000000 columns, so both arrays end as these functions
  everywhere.
-/
import proofs.«126158_j1709396984135_2_alg».proof.Proof.Gen.KernelIdeal.Frame
import proofs.«126158_j1709396984135_2_alg».proof.Proof.BodyValue
import Idealize.ShloMosaic.Lib.Pipeline.Value
import Idealize.ShloMosaic.Lib.ValueIdx

set_option maxRecDepth 16384

noncomputable section

namespace Cert.KernelIdeal.Arrays

open Cert.KernelIdeal Cert.KernelIdeal.Gen Idealize.ShloMosaic Idealize.ShloMosaic.TcCoe Idealize.ShloMosaic.ValueIdx
open Idealize.SL.Sem Cert.Splat
open Idealize.ShloMosaic.Pipeline (Dat)

variable (m : (ℓ : Loc nD τ sig) → Buf (Elt Ideal) ℓ)

theorem zero_off : (![0, 0] : Fin 2 → Nat) = fun _ => 0 := funext fun a => by fin_cases a <;> rfl

/-- The pixel of point `n`, from the transposed positions. -/
def pixOf (A0 : S3x4000000.Idx → EReal) (n : Fin 4000000) : BitVec 32 :=
  pixel (screenU (A0 (ix2 0 n)) (A0 (ix2 2 n))) (screenV (A0 (ix2 1 n)) (A0 (ix2 2 n)))

/-- The weight of point `n`, from the transposed positions and the scale row. -/
def weightOf (A0 : S3x4000000.Idx → EReal) (A1 : S1x4000000.Idx → EReal) (n : Fin 4000000) : EReal :=
  weight (screenU (A0 (ix2 0 n)) (A0 (ix2 2 n))) (screenV (A0 (ix2 1 n)) (A0 (ix2 2 n))) (A1 (ix2 0 n))

/-- The integer result array: column `n` holds point `n`'s pixel. -/
def pixArr (A0 : S3x4000000.Idx → EReal) : S1x4000000.Idx → BitVec 32 := fun i => pixOf A0 (i 1)

/-- The float result array: column `n` holds point `n`'s weight. -/
def weightArr (A0 : S3x4000000.Idx → EReal) (A1 : S1x4000000.Idx → EReal) : S1x4000000.Idx → EReal := fun i => weightOf A0 A1 (i 1)

/-- The index maps over the grid: every window's block at point `t` is block `(0, t)`, and there are 125 points. -/
theorem idx_facts : ∀ t : Fin cfg0.N,
    win0_0.index t (0 : Fin 2) = 0 ∧ win0_0.index t (1 : Fin 2) = t.val
    ∧ win0_1.index t (0 : Fin 2) = 0 ∧ win0_1.index t (1 : Fin 2) = t.val
    ∧ win0_2.index t (0 : Fin 2) = 0 ∧ win0_2.index t (1 : Fin 2) = t.val
    ∧ win0_3.index t (0 : Fin 2) = 0 ∧ win0_3.index t (1 : Fin 2) = t.val
    ∧ t.val < 125 :=
  (by decide +kernel : ∀ t : Fin grid0.N, _)

/-- Every one of the 125 column blocks is some point's. -/
theorem point_of_block : ∀ q : Fin 125, ∃ t : Fin cfg0.N, t.val = q.val :=
  (by decide +kernel : ∀ q : Fin 125, ∃ t : Fin grid0.N, t.val = q.val)

/-- A lane of the positions block at point `t` is the array's column `32000 t + q`. -/
theorem pos_block_at (c : Dev nD) (t : Fin cfg0.N) (r : Fin 3) (q : Fin 32000) (h : t.val * 32000 + q.val < 4000000) :
    iblk m c 0 t (ix2 r q) = V m c main_v0 (ix2 r ⟨t.val * 32000 + q.val, h⟩) := by
  obtain ⟨e0, e1, -⟩ := idx_facts t
  show V m c main_v0 (((cfg0.win 0).blk t).view.emb (ix2 r q)) = V m c main_v0 _
  refine congrArg (V m c main_v0) (funext fun a => Fin.ext ?_)
  match a with
  | ⟨0, _⟩ => show win0_0.index t (0 : Fin 2) * 3 + 1 * r.val = r.val; omega
  | ⟨1, _⟩ => show win0_0.index t (1 : Fin 2) * 32000 + 1 * q.val = t.val * 32000 + q.val; omega

/-- A lane of the scale block at point `t` is the row's column `32000 t + q`. -/
theorem scale_block_at (c : Dev nD) (t : Fin cfg0.N) (q : Fin 32000) (h : t.val * 32000 + q.val < 4000000) :
    iblk m c 1 t (ix2 0 q) = V m c main_v3 (ix2 0 ⟨t.val * 32000 + q.val, h⟩) := by
  obtain ⟨-, -, e0, e1, -⟩ := idx_facts t
  show V m c main_v3 (((cfg0.win 1).blk t).view.emb (ix2 0 q)) = V m c main_v3 _
  refine congrArg (V m c main_v3) (funext fun a => Fin.ext ?_)
  match a with
  | ⟨0, _⟩ => show win0_1.index t (0 : Fin 2) * 1 + 1 * 0 = 0; omega
  | ⟨1, _⟩ => show win0_1.index t (1 : Fin 2) * 32000 + 1 * q.val = t.val * 32000 + q.val; omega

/-- WHAT POINT `t` WRITES BACK to the integer result is block `t` of `pixArr`. -/
theorem flushed_pix (c : Dev nD) (t : Fin cfg0.N) :
    (dats m 0 c).flushed 2 t = ((cfg0.win 2).blk t).view.read (Elt Ideal) (pixArr (V m c main_v0)) := by
  show (cfg0.win 2).cut (grid0.coords t) ((dats m 0 c).after 2 t) = _
  rw [after0_2]
  unfold out0_2
  rw [View.canon_unit_zero zero_off]
  simp only [View.ld_unit_zero (S := S3x32000) zero_off]
  obtain ⟨-, -, -, -, e0, e1, -, -, ht⟩ := idx_facts t
  refine funext fun (j : S1x32000.Idx) => ?_
  obtain ⟨p, q, rfl⟩ : ∃ (p : Fin 1) (q : Fin 32000), j = ix2 p q := ⟨j 0, j 1, eq_ix2 j⟩
  obtain rfl : p = 0 := Subsingleton.elim _ _
  have hq : q.val < 32000 := q.isLt
  have hn : t.val * 32000 + q.val < 4000000 := by omega
  refine (BodyValue.pix_at (iblk m c 0 t) q).trans ?_
  rw [pos_block_at m c t 0 q hn, pos_block_at m c t 1 q hn, pos_block_at m c t 2 q hn]
  show pixOf (V m c main_v0) ⟨t.val * 32000 + q.val, hn⟩ = pixOf (V m c main_v0) ((((cfg0.win 2).blk t).view.emb (ix2 0 q)) 1)
  refine congrArg (pixOf (V m c main_v0)) (Fin.ext ?_)
  show t.val * 32000 + q.val = win0_2.index t (1 : Fin 2) * 32000 + 1 * q.val
  omega

/-- WHAT POINT `t` WRITES BACK to the float result is block `t` of `weightArr`. -/
theorem flushed_weight (c : Dev nD) (t : Fin cfg0.N) :
    (dats m 0 c).flushed 3 t = ((cfg0.win 3).blk t).view.read (Elt Ideal) (weightArr (V m c main_v0) (V m c main_v3)) := by
  show (cfg0.win 3).cut (grid0.coords t) ((dats m 0 c).after 3 t) = _
  rw [after0_3]
  unfold out0_3
  rw [View.canon_unit_zero zero_off]
  simp only [View.ld_unit_zero (S := S3x32000) zero_off, View.ld_unit_zero (S := S1x32000) zero_off]
  obtain ⟨-, -, -, -, -, -, e0, e1, ht⟩ := idx_facts t
  refine funext fun (j : S1x32000.Idx) => ?_
  obtain ⟨p, q, rfl⟩ : ∃ (p : Fin 1) (q : Fin 32000), j = ix2 p q := ⟨j 0, j 1, eq_ix2 j⟩
  obtain rfl : p = 0 := Subsingleton.elim _ _
  have hq : q.val < 32000 := q.isLt
  have hn : t.val * 32000 + q.val < 4000000 := by omega
  refine (BodyValue.weight_at (iblk m c 0 t) (iblk m c 1 t) q).trans ?_
  rw [pos_block_at m c t 0 q hn, pos_block_at m c t 1 q hn, pos_block_at m c t 2 q hn, scale_block_at m c t q hn]
  show weightOf (V m c main_v0) (V m c main_v3) ⟨t.val * 32000 + q.val, hn⟩ = weightOf (V m c main_v0) (V m c main_v3) ((((cfg0.win 3).blk t).view.emb (ix2 0 q)) 1)
  refine congrArg (weightOf (V m c main_v0) (V m c main_v3)) (Fin.ext ?_)
  show t.val * 32000 + q.val = win0_3.index t (1 : Fin 2) * 32000 + 1 * q.val
  omega

/-- An index of the integer result is in point `t`'s block iff each coordinate is in the block's range. -/
theorem mem_blk_pix (t : Fin cfg0.N) (i : S1x4000000.Idx) :
    i ∈ ((cfg0.win 2).blk t).view.set ↔ ∀ a : Fin 2, win0_2.index t a * S1x32000.size a ≤ (i a).val ∧ (i a).val < win0_2.index t a * S1x32000.size a + S1x32000.size a := by
  show i ∈ ((View.whole main_v4_0).slice (win0_2.rect t)).set ↔ _
  rw [View.set_slice_whole, Rect.mem_set_unit]
  exact Iff.rfl

/-- The same for the float result. -/
theorem mem_blk_weight (t : Fin cfg0.N) (i : S1x4000000.Idx) :
    i ∈ ((cfg0.win 3).blk t).view.set ↔ ∀ a : Fin 2, win0_3.index t a * S1x32000.size a ≤ (i a).val ∧ (i a).val < win0_3.index t a * S1x32000.size a + S1x32000.size a := by
  show i ∈ ((View.whole main_v4_1).slice (win0_3.rect t)).set ↔ _
  rw [View.set_slice_whole, Rect.mem_set_unit]
  exact Iff.rfl

/-- The blocks cover the integer result: column `n` is in the block of point `n / 32000`. -/
theorem cover_pix (i : S1x4000000.Idx) : ∃ t : Fin cfg0.N, (cfg0.win 2).flush t = true ∧ i ∈ ((cfg0.win 2).blk t).view.set := by
  have hi0 : (i 0).val < 1 := (i 0).isLt
  have hi1 : (i 1).val < 4000000 := (i 1).isLt
  obtain ⟨t, ht⟩ := point_of_block ⟨(i 1).val / 32000, by omega⟩
  have ht' : t.val = (i 1).val / 32000 := ht
  obtain ⟨-, -, -, -, e0, e1, -⟩ := idx_facts t
  refine ⟨t, flush0_2 t, ?_⟩
  rw [mem_blk_pix]
  intro a
  match a with
  | ⟨0, _⟩ => show win0_2.index t (0 : Fin 2) * 1 ≤ (i 0).val ∧ (i 0).val < win0_2.index t (0 : Fin 2) * 1 + 1; omega
  | ⟨1, _⟩ => show win0_2.index t (1 : Fin 2) * 32000 ≤ (i 1).val ∧ (i 1).val < win0_2.index t (1 : Fin 2) * 32000 + 32000; omega

/-- The blocks cover the float result. -/
theorem cover_weight (i : S1x4000000.Idx) : ∃ t : Fin cfg0.N, (cfg0.win 3).flush t = true ∧ i ∈ ((cfg0.win 3).blk t).view.set := by
  have hi0 : (i 0).val < 1 := (i 0).isLt
  have hi1 : (i 1).val < 4000000 := (i 1).isLt
  obtain ⟨t, ht⟩ := point_of_block ⟨(i 1).val / 32000, by omega⟩
  have ht' : t.val = (i 1).val / 32000 := ht
  obtain ⟨-, -, -, -, -, -, e0, e1, -⟩ := idx_facts t
  refine ⟨t, flush0_3 t, ?_⟩
  rw [mem_blk_weight]
  intro a
  match a with
  | ⟨0, _⟩ => show win0_3.index t (0 : Fin 2) * 1 ≤ (i 0).val ∧ (i 0).val < win0_3.index t (0 : Fin 2) * 1 + 1; omega
  | ⟨1, _⟩ => show win0_3.index t (1 : Fin 2) * 32000 ≤ (i 1).val ∧ (i 1).val < win0_3.index t (1 : Fin 2) * 32000 + 32000; omega

/-- THE INTEGER RESULT after the run: every column holds its point's pixel. -/
theorem final_pix (c : Dev nD) : (dats m 0 c).arrAt 2 cfg0.N = pixArr (V m c main_v0) :=
  (dats m 0 c).arrAt_eq_of_cover 2 (pixArr (V m c main_v0)) (fun t _ => flushed_pix m c t) cover_pix

/-- THE FLOAT RESULT after the run: every column holds its point's weight. -/
theorem final_weight (c : Dev nD) : (dats m 0 c).arrAt 3 cfg0.N = weightArr (V m c main_v0) (V m c main_v3) :=
  (dats m 0 c).arrAt_eq_of_cover 3 (weightArr (V m c main_v0) (V m c main_v3)) (fun t _ => flushed_weight m c t) cover_weight

end Cert.KernelIdeal.Arrays

end
-- ==== Proof.KernelInputs.lean ====
/-
  What the region finds in its two input arrays, read at an index.

  Before the region the host transposes the positions `[4000000, 3]` to `[3, 4000000]`, so entry `(r, n)` of what
  the region finds is coordinate `r` of point `n`; and it cuts column 0 out of the scales `[4000000, 3]` and
  recasts it `[4000000, 1] → [4000000] → [1, 4000000]`, so entry `(0, n)` is the first scale of point `n`.
-/
import proofs.«126158_j1709396984135_2_alg».proof.Proof.Gen.KernelIdeal.Frame
import Idealize.ShloMosaic.Lib.Pipeline.Value
import Idealize.ShloMosaic.Lib.ValueIdx
import Idealize.ShloMosaic.Lib.StableHlo.Run

noncomputable section

namespace Cert.KernelIdeal.Inputs

open Cert.KernelIdeal Cert.KernelIdeal.Gen Idealize.ShloMosaic Idealize.ShloMosaic.TcCoe Idealize.ShloMosaic.ValueIdx
open Idealize.SL.Sem Idealize.ShloMosaic.StableHlo

variable (m : (ℓ : Loc nD τ sig) → Buf (Elt Ideal) ℓ)

/-- The transposed positions as the host's operation of the argument. -/
theorem V_pos (c : Dev nD) :
    (V m c main_v0 : S3x4000000.Idx → EReal)
      = transpose S3x4000000 [1, 0] (m ((c : Thread nD τ).loc main_arg1)) transposes_S4000000x3_S3x4000000_1_0 := by
  show StableHlo.after hostOps0 (fun b => m (c, b)) (Proc.devRef .tc main_v0) = _
  after_results

/-- Entry `(r, n)` of the transposed positions is coordinate `r` of point `n`. -/
theorem V_pos_at (c : Dev nD) (r : Fin 3) (n : Fin 4000000) :
    V m c main_v0 (ix2 r n) = m ((c : Thread nD τ).loc main_arg1) (ix2 n r) := by
  rw [V_pos]
  exact transpose_apply [1, 0] _ transposes_S4000000x3_S3x4000000_1_0 (ix2 r n) (ix2 n r) (fun b => match b with
    | ⟨0, _⟩ => rfl
    | ⟨1, _⟩ => rfl)

/-- The scale row as the host's operations of the argument. -/
theorem V_scale (c : Dev nD) :
    (V m c main_v3 : S1x4000000.Idx → EReal)
      = shapeCast S1x4000000 (shapeCast S4000000 (extractStridedSlice S4000000x1 ![0, 0] (m ((c : Thread nD τ).loc main_arg2)) slices_S4000000x3_S4000000x1_0_0)
          shapeCasts_S4000000x1_S4000000) shapeCasts_S4000000_S1x4000000 := by
  show StableHlo.after hostOps0 (fun b => m (c, b)) (Proc.devRef .tc main_v3) = _
  after_results
  rfl

/-- Entry `(0, n)` of the scale row is the first scale of point `n`. -/
theorem V_scale_at (c : Dev nD) (n : Fin 4000000) :
    V m c main_v3 (ix2 0 n) = m ((c : Thread nD τ).loc main_arg2) (ix2 n 0) := by
  rw [V_scale]
  have hn : n.val < 4000000 := n.isLt
  refine (shapeCast_apply _ shapeCasts_S4000000_S1x4000000 (ix2 0 n) (ix1 n) (by
    rewrite [Shape.rowMajor_val_two, Shape.rowMajor_val_one]; show n.val = 0 * 4000000 + n.val; omega)).trans ?_
  refine (shapeCast_apply _ shapeCasts_S4000000x1_S4000000 (ix1 n) (ix2 n 0) (by
    rewrite [Shape.rowMajor_val_two, Shape.rowMajor_val_one]; show n.val * 1 + 0 = n.val; omega)).trans ?_
  exact extractStridedSlice_apply ![0, 0] _ slices_S4000000x3_S4000000x1_0_0 (ix2 n 0) (ix2 n 0) (fun a => match a with
    | ⟨0, _⟩ => by show n.val = 0 + n.val; omega
    | ⟨1, _⟩ => rfl)

end Cert.KernelIdeal.Inputs

end
-- ==== Proof.Tails.lean ====
/-
  The two programs end with the same host operations.

  After the pixel array and the weight array are there, both programs do the same thing with them: a scatter that keeps,
  for every pixel, the largest index of a point landing on it (from `-2^31` where none does), the extra pixel dropped,
  the winner clipped into range, the winner's colour gathered and multiplied by the winner's weight, zero where no point
  landed, and the `[921600, 3]` result recast as the image `[720, 1280, 3]`. The chain is never opened: read over any
  two buffer contents that agree on the pixel array, the weight array and the colours, the two chains give equal images,
  because they are the same operations in the same order.
-/
import proofs.«126158_j1709396984135_2_alg».proof.Proof.Gen.KernelIdeal.Launch
import proofs.«126158_j1709396984135_2_alg».proof.Proof.RefRunP
import Idealize.ShloMosaic.Lib.StableHlo.Run
import Idealize.ShloMosaic.PureOps.Ideal

noncomputable section

namespace Cert.Tails

open Idealize.ShloMosaic Idealize.ShloMosaic.TcCoe Idealize.SL.Sem Idealize.ShloMosaic.StableHlo

/-- The kernel program's operations after the region, as one list. -/
abbrev kernelTail : List (HloOp Cert.KernelIdeal.τ Cert.KernelIdeal.sig (Elt Ideal)) :=
  List.flatten [Cert.KernelIdeal.Gen.hostOps1, Cert.KernelIdeal.Gen.hostOps1_1, Cert.KernelIdeal.Gen.hostOps1_2,
    Cert.KernelIdeal.Gen.hostOps1_3, Cert.KernelIdeal.Gen.hostOps1_4]

set_option maxRecDepth 16384 in
set_option maxHeartbeats 4000000 in
/-- The image the kernel program's tail computes from buffer contents `WK` is the image the reference's tail computes
    from `WR`, when the reference's pixel array is the kernel's recast `[1, 4000000] → [4000000]`, likewise the weight
    array, and the colours agree. -/
theorem images_agree (WK : Valuation Cert.KernelIdeal.τ Cert.KernelIdeal.sig (Elt Ideal))
    (WR : Valuation Cert.ReferenceIdeal.τ Cert.ReferenceIdeal.sig (Elt Ideal))
    (hpix : WR (Proc.devRef .tc Cert.ReferenceIdeal.main_v51)
      = shapeCast Cert.KernelIdeal.S4000000 (WK (Proc.devRef .tc Cert.KernelIdeal.main_v4_0)) Cert.KernelIdeal.Facts₀.shapeCasts_S1x4000000_S4000000)
    (hweight : WR (Proc.devRef .tc Cert.ReferenceIdeal.main_v45)
      = shapeCast Cert.KernelIdeal.S4000000 (WK (Proc.devRef .tc Cert.KernelIdeal.main_v4_1)) Cert.KernelIdeal.Facts₀.shapeCasts_S1x4000000_S4000000)
    (hcolors : WR (Proc.devRef .tc Cert.ReferenceIdeal.main_arg3) = WK (Proc.devRef .tc Cert.KernelIdeal.main_arg3)) :
    after (Cert.ReferenceIdeal.ValueP.opsB (F := Ideal)) WR (Proc.devRef .tc Cert.ReferenceIdeal.main_v79)
      = after kernelTail WK (Proc.devRef .tc Cert.KernelIdeal.main_v34) := by
  simp only [kernelTail, Cert.KernelIdeal.Gen.hostOps1, Cert.KernelIdeal.Gen.hostOps1_1, Cert.KernelIdeal.Gen.hostOps1_2,
    Cert.KernelIdeal.Gen.hostOps1_3, Cert.KernelIdeal.Gen.hostOps1_4, List.flatten_cons, List.flatten_nil, List.append_nil,
    List.cons_append, List.nil_append]
  after_results_simp
  rw [hpix, hweight, hcolors]
  rfl

end Cert.Tails

end
-- ==== Proof.KernelRun.lean ====
/-
  The kernel program's run, read: what the image buffer holds at the end.

  The region leaves the two result arrays at the pixel and weight of every point (the blocks' work, assembled) and every
  other buffer as it was; the host operations after the region then compute the image from those contents. Read at the
  contents the region leaves: the pixel array's column `n` is the pixel of point `n` of the positions argument, the
  weight array's column `n` its weight from the positions and scales arguments, and the colours are the argument's.
-/
import proofs.«126158_j1709396984135_2_alg».proof.Proof.Gen.KernelIdeal.Frame
import proofs.«126158_j1709396984135_2_alg».proof.Proof.KernelArrays
import proofs.«126158_j1709396984135_2_alg».proof.Proof.KernelInputs
import proofs.«126158_j1709396984135_2_alg».proof.Proof.Tails
import Idealize.ShloMosaic.Lib.Pipeline.Value
import Idealize.ShloMosaic.Lib.ValueIdx

noncomputable section

namespace Cert.KernelIdeal.Run

open Cert.KernelIdeal Cert.KernelIdeal.Gen Idealize.ShloMosaic Idealize.ShloMosaic.TcCoe Idealize.ShloMosaic.ValueIdx
open Idealize.SL.Sem Idealize.ShloMosaic.StableHlo Cert.Splat Cert.KernelIdeal.Arrays Cert.KernelIdeal.Inputs

variable (m : (ℓ : Loc nD τ sig) → Buf (Elt Ideal) ℓ) (ρ : Dev nD → PrngReg)

/-- The buffer contents the region leaves on core `c`: the pipeline's arrays as the proof data computes them, every
    other buffer as the region found it. -/
def regionExit (c : Dev nD) : Valuation τ sig (Elt Ideal) :=
  Pipeline.withArrays (cfgs 0).spec c (V0 m c) fun w => (dats m 0 c).arrAt w (cfgs 0).N

/-- The pixel array the region leaves, at column `n`: the pixel of point `n` of the positions argument. -/
theorem exit_pix_at (c : Dev nD) (n : Fin 4000000) :
    regionExit m c (Proc.devRef .tc main_v4_0) (ix2 0 n)
      = pixel (screenU (m ((c : Thread nD τ).loc main_arg1) (ix2 n 0)) (m ((c : Thread nD τ).loc main_arg1) (ix2 n 2)))
          (screenV (m ((c : Thread nD τ).loc main_arg1) (ix2 n 1)) (m ((c : Thread nD τ).loc main_arg1) (ix2 n 2))) := by
  have e : regionExit m c (Proc.devRef .tc main_v4_0) = pixArr (V m c main_v0) :=
    (Pipeline.withArrays_arr spec0 winFacts0.arr_inj c _ _ 2).trans (final_pix m c)
  rw [e]
  show pixOf (V m c main_v0) n = _
  unfold pixOf
  rw [V_pos_at, V_pos_at, V_pos_at]

/-- The weight array the region leaves, at column `n`: the weight of point `n`. -/
theorem exit_weight_at (c : Dev nD) (n : Fin 4000000) :
    regionExit m c (Proc.devRef .tc main_v4_1) (ix2 0 n)
      = weight (screenU (m ((c : Thread nD τ).loc main_arg1) (ix2 n 0)) (m ((c : Thread nD τ).loc main_arg1) (ix2 n 2)))
          (screenV (m ((c : Thread nD τ).loc main_arg1) (ix2 n 1)) (m ((c : Thread nD τ).loc main_arg1) (ix2 n 2)))
          (m ((c : Thread nD τ).loc main_arg2) (ix2 n 0)) := by
  have e : regionExit m c (Proc.devRef .tc main_v4_1) = weightArr (V m c main_v0) (V m c main_v3) :=
    (Pipeline.withArrays_arr spec0 winFacts0.arr_inj c _ _ 3).trans (final_weight m c)
  rw [e]
  show weightOf (V m c main_v0) (V m c main_v3) n = _
  unfold weightOf
  rw [V_pos_at, V_pos_at, V_pos_at, V_scale_at]

/-- The colours the region leaves are the argument's. -/
theorem exit_colors (c : Dev nD) :
    regionExit m c (Proc.devRef .tc main_arg3) = m ((c : Thread nD τ).loc main_arg3) :=
  (Pipeline.withArrays_of_ne _ c (V0 m c) _ main_arg3 (by exact (by decide : ∀ w, Pipeline.arrRef spec0 w ≠ main_arg3))).trans
    (V_main_arg3 m c)

/-- THE RUN: every weakly fair execution terminates with the image buffer at the tail's operations of the contents the
    region leaves, and the arguments unchanged. -/
theorem run : θ_run defs (onTc (τ := τ) (main (F := Ideal))) ⟨m, fun _ => 0, ρ⟩ (fun r => ∀ c : Dev nD,
      r.2.mem ((c.tc : Thread nD τ).loc main_v34) = after Cert.Tails.kernelTail (regionExit m c) (Proc.devRef .tc main_v34)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c).2 main_v34 (Pipeline.mem_restRefs_of main_v34 (by decide) (by decide)),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c))⟩)
    (run_main (F := Ideal) m ρ)

end Cert.KernelIdeal.Run

end
-- ==== Proof.RefValue.lean ====
/-
  What the reference computes for one point.

  The reference works on whole columns: it cuts the `x`, `y` and `z` columns out of the positions `[4000000, 3]` and
  the first column out of the scales (a slice `[4000000, 1]` recast to `[4000000]`), and applies the projection
  entry by entry. Read at point `n`, its pixel array is the pixel of point `n`'s screen position and its weight array
  the weight of point `n`; the colours it passes through untouched.
-/
import proofs.«126158_j1709396984135_2_alg».proof.Proof.RefRunP
import proofs.«126158_j1709396984135_2_alg».proof.Proof.Splat
import Idealize.ShloMosaic.Lib.Pipeline.Value
import Idealize.ShloMosaic.Lib.ValueIdx

noncomputable section

namespace Cert.ReferenceIdeal.Front

open Cert.ReferenceIdeal Cert.ReferenceIdeal.Gen Cert.ReferenceIdeal.ValueP Idealize.ShloMosaic Idealize.ShloMosaic.TcCoe
open Idealize.SL.Sem Idealize.ShloMosaic.StableHlo Idealize.ShloMosaic.ValueIdx Cert.Splat

/-- Column 0 of an `[4000000, 3]` array, cut out and recast to a vector, at `n`. -/
theorem col0_at (x : FVec Ideal S4000000x3 .f32) (n : Fin 4000000) :
    shapeCast S4000000 (extractStridedSlice S4000000x1 ![0, 0] x slices_S4000000x3_S4000000x1_0_0) shapeCasts_S4000000x1_S4000000 (ix1 n)
      = x (ix2 n 0) := by
  have hn : n.val < 4000000 := n.isLt
  refine (shapeCast_apply _ shapeCasts_S4000000x1_S4000000 (ix1 n) (ix2 n 0) (by
    rewrite [Shape.rowMajor_val_two, Shape.rowMajor_val_one]; show n.val * 1 + 0 = n.val; omega)).trans ?_
  exact extractStridedSlice_apply ![0, 0] _ slices_S4000000x3_S4000000x1_0_0 (ix2 n 0) (ix2 n 0) (fun a => match a with
    | ⟨0, _⟩ => by show n.val = 0 + n.val; omega
    | ⟨1, _⟩ => rfl)

/-- Column 1, the same way. -/
theorem col1_at (x : FVec Ideal S4000000x3 .f32) (n : Fin 4000000) :
    shapeCast S4000000 (extractStridedSlice S4000000x1 ![0, 1] x slices_S4000000x3_S4000000x1_0_1) shapeCasts_S4000000x1_S4000000 (ix1 n)
      = x (ix2 n 1) := by
  have hn : n.val < 4000000 := n.isLt
  refine (shapeCast_apply _ shapeCasts_S4000000x1_S4000000 (ix1 n) (ix2 n 0) (by
    rewrite [Shape.rowMajor_val_two, Shape.rowMajor_val_one]; show n.val * 1 + 0 = n.val; omega)).trans ?_
  exact extractStridedSlice_apply ![0, 1] _ slices_S4000000x3_S4000000x1_0_1 (ix2 n 0) (ix2 n 1) (fun a => match a with
    | ⟨0, _⟩ => by show n.val = 0 + n.val; omega
    | ⟨1, _⟩ => rfl)

/-- Column 2, the same way. -/
theorem col2_at (x : FVec Ideal S4000000x3 .f32) (n : Fin 4000000) :
    shapeCast S4000000 (extractStridedSlice S4000000x1 ![0, 2] x slices_S4000000x3_S4000000x1_0_2) shapeCasts_S4000000x1_S4000000 (ix1 n)
      = x (ix2 n 2) := by
  have hn : n.val < 4000000 := n.isLt
  refine (shapeCast_apply _ shapeCasts_S4000000x1_S4000000 (ix1 n) (ix2 n 0) (by
    rewrite [Shape.rowMajor_val_two, Shape.rowMajor_val_one]; show n.val * 1 + 0 = n.val; omega)).trans ?_
  exact extractStridedSlice_apply ![0, 2] _ slices_S4000000x3_S4000000x1_0_2 (ix2 n 0) (ix2 n 2) (fun a => match a with
    | ⟨0, _⟩ => by show n.val = 0 + n.val; omega
    | ⟨1, _⟩ => rfl)

set_option maxRecDepth 16384 in
set_option maxHeartbeats 2000000 in
/-- THE PIXEL ARRAY at `n`: the pixel of point `n`. -/
theorem pix_at (V : Valuation τ sig (Elt Ideal)) (n : Fin 4000000) :
    after (opsA (F := Ideal)) V (Proc.devRef .tc main_v51) (ix1 n)
      = pixel (screenU (V (Proc.devRef .tc main_arg1) (ix2 n 0)) (V (Proc.devRef .tc main_arg1) (ix2 n 2)))
          (screenV (V (Proc.devRef .tc main_arg1) (ix2 n 1)) (V (Proc.devRef .tc main_arg1) (ix2 n 2))) := by
  after_results_simp
  rw [← col0_at (V (Proc.devRef .tc main_arg1)) n, ← col1_at (V (Proc.devRef .tc main_arg1)) n, ← col2_at (V (Proc.devRef .tc main_arg1)) n]
  rfl

set_option maxRecDepth 16384 in
set_option maxHeartbeats 2000000 in
/-- THE WEIGHT ARRAY at `n`: the weight of point `n`. -/
theorem weight_at (V : Valuation τ sig (Elt Ideal)) (n : Fin 4000000) :
    after (opsA (F := Ideal)) V (Proc.devRef .tc main_v45) (ix1 n)
      = weight (screenU (V (Proc.devRef .tc main_arg1) (ix2 n 0)) (V (Proc.devRef .tc main_arg1) (ix2 n 2)))
          (screenV (V (Proc.devRef .tc main_arg1) (ix2 n 1)) (V (Proc.devRef .tc main_arg1) (ix2 n 2)))
          (V (Proc.devRef .tc main_arg2) (ix2 n 0)) := by
  after_results_simp
  rw [← col0_at (V (Proc.devRef .tc main_arg1)) n, ← col1_at (V (Proc.devRef .tc main_arg1)) n, ← col2_at (V (Proc.devRef .tc main_arg1)) n,
    ← col0_at (V (Proc.devRef .tc main_arg2)) n]
  rfl

set_option maxRecDepth 16384 in
/-- The first 67 operations leave the colours as they were. -/
theorem colors_kept (V : Valuation τ sig (Elt Ideal)) :
    after (opsA (F := Ideal)) V (Proc.devRef .tc main_arg3) = V (Proc.devRef .tc main_arg3) := by
  after_results_simp

end Cert.ReferenceIdeal.Front

end
-- ==== Proof.LibAppend.lean ====
/-
  A list in parts: three laws about `l₁ ++ l₂`.

  A property that holds of every member of two lists holds of every member of their concatenation (stated once for
  `List.Forall`, once for `∀ x ∈ l`); and the buffer contents after a straight-line list of operations `l₁ ++ l₂` are the
  contents after `l₂` FROM the contents after `l₁`. With them a long operation list given as a concatenation of short ones is
  handled one short list at a time.
-/
import Idealize.ShloMosaic.Lib.StableHlo.Run

namespace Cert.ListParts

open Idealize.ShloMosaic Idealize.ShloMosaic.StableHlo

/-- `List.Forall` of a concatenation, from its two parts. -/
theorem forall_append {α : Type} {P : α → Prop} {l₁ l₂ : List α} (h₁ : l₁.Forall P) (h₂ : l₂.Forall P) :
    (l₁ ++ l₂).Forall P :=
  List.forall_iff_forall_mem.mpr fun x hx =>
    (List.mem_append.mp hx).elim (List.forall_iff_forall_mem.mp h₁ x) (List.forall_iff_forall_mem.mp h₂ x)

/-- A property of every member of a concatenation, from its two parts. -/
theorem mem_append_all {α : Type} {P : α → Prop} {l₁ l₂ : List α} (h₁ : ∀ x ∈ l₁, P x) (h₂ : ∀ x ∈ l₂, P x) :
    ∀ x ∈ l₁ ++ l₂, P x :=
  fun x hx => (List.mem_append.mp hx).elim (h₁ x) (h₂ x)

/-- The contents after two lists of operations in a row are the second list's, from the first list's. -/
theorem after_append {τ : Topo} {sig : RefSig} {Val : EltTy → Type} (l₁ l₂ : List (HloOp τ sig Val))
    (V : Valuation τ sig Val) : after (l₁ ++ l₂) V = after l₂ (after l₁ V) := by
  induction l₁ generalizing V with
  | nil => rfl
  | cons op l ih => exact ih (op.result V)

end Cert.ListParts
-- ==== Proof.Bridge.lean ====
/-
  The two programs compute the same image.

  The reference's 111 operations are its first 67 (which end with the pixel array and the weight array) followed by the
  44 that turn those into the image; the kernel program has the region in place of the first part and the same chain
  after it. The chains agree when their inputs do (`Cert.Tails.images_agree`), and the inputs agree point by point:
  both pixel arrays hold, at `n`, the pixel of point `n`'s screen position, both weight arrays its weight — the
  kernel's as a `[1, 4000000]` row recast to a vector, the reference's as a vector — and the colours are the shared
  argument.
-/
import proofs.«126158_j1709396984135_2_alg».proof.Proof.KernelRun
import proofs.«126158_j1709396984135_2_alg».proof.Proof.RefValue
import proofs.«126158_j1709396984135_2_alg».proof.Proof.Tails
import proofs.«126158_j1709396984135_2_alg».proof.Proof.LibAppend
import Idealize.ShloMosaic.Lib.Pipeline.Value
import Idealize.ShloMosaic.Lib.ValueIdx

noncomputable section

namespace Cert.Bridge

open Idealize.ShloMosaic Idealize.ShloMosaic.TcCoe Idealize.ShloMosaic.ValueIdx Idealize.SL.Sem Idealize.ShloMosaic.StableHlo Cert.Splat

/-- A `[1, 4000000]` row recast to a vector, at `n`, is the row's column `n`. -/
theorem row_as_vector_at {α : Type} (x : Cert.KernelIdeal.S1x4000000.Idx → α) (n : Fin 4000000) :
    shapeCast Cert.KernelIdeal.S4000000 x Cert.KernelIdeal.Facts₀.shapeCasts_S1x4000000_S4000000 (ix1 n) = x (ix2 0 n) := by
  have hn : n.val < 4000000 := n.isLt
  exact shapeCast_apply x Cert.KernelIdeal.Facts₀.shapeCasts_S1x4000000_S4000000 (ix1 n) (ix2 0 n) (by
    rewrite [Shape.rowMajor_val_two, Shape.rowMajor_val_one]; show 0 * 4000000 + n.val = n.val; omega)

/-- THE IMAGES AGREE: from memories that agree on positions, scales and colours, the reference's image buffer after
    all its operations is the kernel program's after the region and its tail. -/
theorem image_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h1 : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2)
      = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3)
      = m ((c.tc : Thread Cert.KernelIdeal.nD Cert.KernelIdeal.τ).loc Cert.KernelIdeal.main_arg3)) :
    after (Cert.ReferenceIdeal.ValueP.ops (F := Ideal)) (launchContents m' c) (Proc.devRef .tc Cert.ReferenceIdeal.main_v79)
      = after Cert.Tails.kernelTail (Cert.KernelIdeal.Run.regionExit m c) (Proc.devRef .tc Cert.KernelIdeal.main_v34) := by
  have e1 : launchContents m' c (Proc.devRef .tc Cert.ReferenceIdeal.main_arg1)
      = m ((c.tc : Thread Cert.KernelIdeal.nD Cert.KernelIdeal.τ).loc Cert.KernelIdeal.main_arg1) := h1
  have e2 : launchContents m' c (Proc.devRef .tc Cert.ReferenceIdeal.main_arg2)
      = m ((c.tc : Thread Cert.KernelIdeal.nD Cert.KernelIdeal.τ).loc Cert.KernelIdeal.main_arg2) := h2
  show after (Cert.ReferenceIdeal.ValueP.opsA ++ Cert.ReferenceIdeal.ValueP.opsB) _ _ = _
  rw [Cert.ListParts.after_append]
  refine Cert.Tails.images_agree (Cert.KernelIdeal.Run.regionExit m c) (after Cert.ReferenceIdeal.ValueP.opsA (launchContents m' c)) ?_ ?_ ?_
  · refine funext fun (i : Cert.ReferenceIdeal.S4000000.Idx) => ?_
    obtain ⟨n, rfl⟩ : ∃ n : Fin 4000000, i = ix1 n := ⟨i 0, eq_ix1 i⟩
    refine (Cert.ReferenceIdeal.Front.pix_at (launchContents m' c) n).trans ?_
    refine Eq.trans ?_ (row_as_vector_at _ n).symm
    rw [Cert.KernelIdeal.Run.exit_pix_at, e1]
  · refine funext fun (i : Cert.ReferenceIdeal.S4000000.Idx) => ?_
    obtain ⟨n, rfl⟩ : ∃ n : Fin 4000000, i = ix1 n := ⟨i 0, eq_ix1 i⟩
    refine (Cert.ReferenceIdeal.Front.weight_at (launchContents m' c) n).trans ?_
    refine Eq.trans ?_ (row_as_vector_at _ n).symm
    rw [Cert.KernelIdeal.Run.exit_weight_at, e1, e2]
  · refine (Cert.ReferenceIdeal.Front.colors_kept (launchContents m' c)).trans ?_
    exact h3.trans (Cert.KernelIdeal.Run.exit_colors m c).symm

set_option maxRecDepth 16384 in
set_option maxHeartbeats 8000000 in
/-- No operation of the reference writes an argument: each ends as launched. -/
theorem ref_args_kept (V : Valuation Cert.ReferenceIdeal.τ Cert.ReferenceIdeal.sig (Elt Ideal)) :
    after (Cert.ReferenceIdeal.ValueP.ops (F := Ideal)) V (Proc.devRef .tc Cert.ReferenceIdeal.main_arg0) = V (Proc.devRef .tc Cert.ReferenceIdeal.main_arg0)
    ∧ after (Cert.ReferenceIdeal.ValueP.ops (F := Ideal)) V (Proc.devRef .tc Cert.ReferenceIdeal.main_arg1) = V (Proc.devRef .tc Cert.ReferenceIdeal.main_arg1)
    ∧ after (Cert.ReferenceIdeal.ValueP.ops (F := Ideal)) V (Proc.devRef .tc Cert.ReferenceIdeal.main_arg2) = V (Proc.devRef .tc Cert.ReferenceIdeal.main_arg2)
    ∧ after (Cert.ReferenceIdeal.ValueP.ops (F := Ideal)) V (Proc.devRef .tc Cert.ReferenceIdeal.main_arg3) = V (Proc.devRef .tc Cert.ReferenceIdeal.main_arg3) := by
  refine ⟨?_, ?_, ?_, ?_⟩ <;>
  · show after (Cert.ReferenceIdeal.ValueP.opsA ++ Cert.ReferenceIdeal.ValueP.opsB) _ _ = _
    rw [Cert.ListParts.after_append]
    after_results_simp

end Cert.Bridge

end
-- ==== Proof.lean ====
/-
  A point cloud projected onto a 720 × 1280 image, the last point landing on a pixel winning it: the kernel program
  against its jnp reference, as equal images over the extended reals.

  Every point `(x, y, z)` is seen at `u = 800 · (x / (z + 3)) + 640`, `v = 800 · (y / (z + 3)) + 360`; it lands on pixel
  `⌊v⌋ · 1280 + ⌊u⌋` when in frame (on an extra pixel otherwise) with weight `exp (-(du² + dv²) / (2 · r · r))`, `du`,
  `dv` the offsets inside the pixel, `r` a hundred times the point's first scale. A pixel's colour is its last point's
  colour times that point's weight, zero where no point lands.

  The kernel program computes pixel and weight of all 4000000 points in a kernel — 125 blocks of 32000 points, the
  positions transposed so that the points run along the lanes — and the reference computes them column by column on the
  host; both then run the same chain (scatter-max of the point index, clip, gather, multiply, select, reshape). The proof:
  each block's lanes are the projection of their points (`BodyValue`), the blocks tile the two result arrays
  (`KernelArrays`), the arrays the region reads are the arguments re-laid (`KernelInputs`), so the region leaves pixel
  and weight of every point (`KernelRun`); the reference's first 67 operations leave the same two arrays (`RefValue`);
  and the shared chain, never opened, gives equal images from equal inputs (`Tails`, `Bridge`). No precondition is
  used: the two sides are the same function of the arguments on all extended reals. The idealization rewrote nothing,
  so `preserves` has nothing to state.
-/
import proofs.«126158_j1709396984135_2_alg».proof.Defs
import proofs.«126158_j1709396984135_2_alg».proof.Proof.Gen.Kernel
import proofs.«126158_j1709396984135_2_alg».proof.Proof.Gen.Kernel.Skeleton
import proofs.«126158_j1709396984135_2_alg».proof.Proof.Gen.Kernel.Launch
import proofs.«126158_j1709396984135_2_alg».proof.Proof.Gen.Kernel.Points
import proofs.«126158_j1709396984135_2_alg».proof.Proof.Gen.Kernel.Frame
import proofs.«126158_j1709396984135_2_alg».proof.Proof.Gen.KernelIdeal
import proofs.«126158_j1709396984135_2_alg».proof.Proof.Gen.KernelIdeal.Skeleton
import proofs.«126158_j1709396984135_2_alg».proof.Proof.Gen.KernelIdeal.Launch
import proofs.«126158_j1709396984135_2_alg».proof.Proof.Gen.KernelIdeal.Points
import proofs.«126158_j1709396984135_2_alg».proof.Proof.Gen.KernelIdeal.Frame
import proofs.«126158_j1709396984135_2_alg».proof.Proof.Gen.ReferenceIdeal
import proofs.«126158_j1709396984135_2_alg».proof.Proof.Gen.Pre_finite_inputs
import proofs.«126158_j1709396984135_2_alg».proof.Proof.RefRunP
import proofs.«126158_j1709396984135_2_alg».proof.Proof.KernelRun
import proofs.«126158_j1709396984135_2_alg».proof.Proof.Bridge
import Idealize.ShloMosaic.Adequacy
import Idealize.ShloMosaic.Init

noncomputable section

namespace Cert.Proof

open Idealize.ShloMosaic Idealize.ShloMosaic.TcCoe Idealize.SL.Sem Idealize.ShloMosaic.StableHlo

/-- The kernel program as printed runs and keeps its arguments. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference runs, and none of its operations writes an argument. -/
theorem frame_reference : Cert.frame_ReferenceIdeal := fun m ρ _ =>
  (θ_run Cert.ReferenceIdeal.defs _ _).mono (fun _ h c =>
    ⟨(h c Cert.ReferenceIdeal.main_arg0).trans (Cert.Bridge.ref_args_kept (launchContents m c)).1,
      (h c Cert.ReferenceIdeal.main_arg1).trans (Cert.Bridge.ref_args_kept (launchContents m c)).2.1,
      (h c Cert.ReferenceIdeal.main_arg2).trans (Cert.Bridge.ref_args_kept (launchContents m c)).2.2.1,
      (h c Cert.ReferenceIdeal.main_arg3).trans (Cert.Bridge.ref_args_kept (launchContents m c)).2.2.2⟩)
    (Cert.ReferenceIdeal.ValueP.run_after (F := Ideal) m ρ)

/-- From memories agreeing on the arguments both programs end with the same image: the kernel program's is the shared
    chain of what its region leaves, the reference's the same chain of what its first 67 operations leave, and those
    agree point by point (`Cert.Bridge.image_eq`). -/
theorem algebraic : Cert.algebraic_KernelIdeal_ReferenceIdeal := by
  intro m ρ m' ρ' _ hagree
  refine ⟨fun c => after Cert.Tails.kernelTail (Cert.KernelIdeal.Run.regionExit m c) (Proc.devRef .tc Cert.KernelIdeal.main_v34),
    Cert.KernelIdeal.Run.run m ρ, ?_⟩
  refine (θ_run Cert.ReferenceIdeal.defs _ _).mono (fun _ h c => ⟨?_, ?_, ?_, ?_, ?_⟩)
    (Cert.ReferenceIdeal.ValueP.run_after (F := Ideal) m' ρ')
  · exact (h c Cert.ReferenceIdeal.main_v79).trans
      (Cert.Bridge.image_eq m m' c (hagree c).2.1 (hagree c).2.2.1 (hagree c).2.2.2)
  · exact (h c Cert.ReferenceIdeal.main_arg0).trans (Cert.Bridge.ref_args_kept (launchContents m' c)).1
  · exact (h c Cert.ReferenceIdeal.main_arg1).trans (Cert.Bridge.ref_args_kept (launchContents m' c)).2.1
  · exact (h c Cert.ReferenceIdeal.main_arg2).trans (Cert.Bridge.ref_args_kept (launchContents m' c)).2.2.1
  · exact (h c Cert.ReferenceIdeal.main_arg3).trans (Cert.Bridge.ref_args_kept (launchContents m' c)).2.2.2

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
